-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel

variable [Facts]

def fn {F : FTy → Type} [FloatOps F] (main_arg0 : FVec F S16384x128 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  main_v3
-- ==== Kernel.lean ====
abbrev S16384x128 : Shape := ⟨2, ![16384, 128]⟩
abbrev S16384x16384 : Shape := ⟨2, ![16384, 16384]⟩
abbrev S1024x128 : Shape := ⟨2, ![1024, 128]⟩
abbrev S1024x1024 : Shape := ⟨2, ![1024, 1024]⟩
abbrev S128x1024 : Shape := ⟨2, ![128, 1024]⟩
abbrev S1024 : Shape := ⟨1, ![1024]⟩
abbrev S1024x1 : Shape := ⟨2, ![1024, 1]⟩
abbrev S1x1024 : Shape := ⟨2, ![1, 1024]⟩

abbrev nBuf : Space → Nat
  | .hbm => 2
  | .vmem => 6
  | .smem => 0
  | _ => 0

abbrev bufTy : (tb : Table) → Fin (tcTables nBuf tb) → BufTy
  | .hbm, ⟨0, _⟩ => ⟨S16384x128, .f32⟩
  | .hbm, ⟨1, _⟩ => ⟨S16384x16384, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x1024, .f32⟩
  | .local _ .vmem, ⟨5, _⟩ => ⟨S1024x1024, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1024x128_S1024x128_0_0 : ∀ a, (![0, 0] : Fin 2 → Nat) a + S1024x128.size a ≤ S1024x128.size a
  h_S1024x128 : 0 < S1024x128.numel
  bitsLt_bf16_f32 : FTy.bits .bf16 < FTy.bits .f32
  transposes_S1024x128_p1_0_S128x1024 : S1024x128.Transposes [1, 0] S128x1024
  reduces_S1024x128_S1024 : S1024x128.Reduces [1] S1024
  shapeCasts_S1024_S1024x1 : S1024.ShapeCasts S1024x1
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x128_S128x1024_S1024x1024_1_0_0_1_n_n_wf : DotDims.WF S1024x128 S128x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S16384x128.size a
  hwx0_0 : ∀ i : grid0.Coords, EltTy.bits .f32 = 32 ∨ (Rect.block (s := S16384x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S16384x128.size a
  hwx0_1 : ∀ i : grid0.Coords, EltTy.bits .f32 = 32 ∨ (Rect.block (s := S16384x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S16384x16384.size a
  hwx0_2 : ∀ i : grid0.Coords, EltTy.bits .f32 = 32 ∨ (Rect.block (s := S16384x16384) S1024x1024.size (cc0_transform_2 i) (hinb0_2 i)).WholeWords (EltTy.packing .f32)

variable [Facts₀]

def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x128 : Shape := ⟨2, ![16384, 128]⟩
abbrev S16384x16384 : Shape := ⟨2, ![16384, 16384]⟩
abbrev S_ : Shape := ⟨0, ![]⟩
abbrev S16384 : Shape := ⟨1, ![16384]⟩
abbrev S16384x1 : Shape := ⟨2, ![16384, 1]⟩
abbrev S1x16384 : Shape := ⟨2, ![1, 16384]⟩

abbrev nBuf : Space → Nat
  | .hbm => 15
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384x16384, .f32⟩
  | .hbm, ⟨2, _⟩ => ⟨S16384x128, .f32⟩
  | .hbm, ⟨3, _⟩ => ⟨S_, .f32⟩
  | .hbm, ⟨4, _⟩ => ⟨S16384, .f32⟩
  | .hbm, ⟨5, _⟩ => ⟨S16384, .f32⟩
  | .hbm, ⟨6, _⟩ => ⟨S16384x1, .f32⟩
  | .hbm, ⟨7, _⟩ => ⟨S1x16384, .f32⟩
  | .hbm, ⟨8, _⟩ => ⟨S16384x16384, .f32⟩
  | .hbm, ⟨9, _⟩ => ⟨S16384x16384, .f32⟩
  | .hbm, ⟨10, _⟩ => ⟨S16384x16384, .f32⟩
  | .hbm, ⟨11, _⟩ => ⟨S_, .f32⟩
  | .hbm, ⟨12, _⟩ => ⟨S16384x16384, .f32⟩
  | .hbm, ⟨13, _⟩ => ⟨S16384x16384, .f32⟩
  | .hbm, ⟨14, _⟩ => ⟨S16384x16384, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]

class Facts₀ : Prop where
  reducesTo_S16384x128_S16384_d1 : S16384x128.ReducesTo [1] S16384
  h_S_ : 0 < S_.numel
  bcast_S16384_S16384x1_0 : S16384.BroadcastsInDim S16384x1 (![0] : Fin 1 → Fin S16384x1.rank)
  bcast_S16384_S1x16384_1 : S16384.BroadcastsInDim S1x16384 (![1] : Fin 1 → Fin S1x16384.rank)
  bcast_S16384x1_S16384x16384_0_1 : S16384x1.BroadcastsInDim S16384x16384 (![0, 1] : Fin 2 → Fin S16384x16384.rank)
  bcast_S1x16384_S16384x16384_0_1 : S1x16384.BroadcastsInDim S16384x16384 (![0, 1] : Fin 2 → Fin S16384x16384.rank)
  bcast_S_S16384x16384 : S_.BroadcastsInDim S16384x16384 (![] : Fin 0 → Fin S16384x16384.rank)
  dot_S16384x128_S16384x128_S16384x16384_1_1_0_0_n_n_wf : DotDims.WF S16384x128 S16384x128 S16384x16384 [1] [1] [0] [0] [] []

variable [Facts₀]

def dot_S16384x128_S16384x128_S16384x16384_1_1_0_0_n_n : DotDims S16384x128 S16384x128 S16384x16384 where
  lhsContracting := [1]
  rhsContracting := [1]
  lhsNonContracting := [0]
  rhsNonContracting := [0]
  lhsBatch := []
  rhsBatch := []
  wf := dot_S16384x128_S16384x128_S16384x16384_1_1_0_0_n_n_wf

class Facts : Prop extends Facts₀ where

variable [Facts]
-- ==== Proof.BitsTiles.lean ====
/-
  The pipelined cosine kernel, point by point (program `Kernel`, at any float instance `F`).

  The grid has 16 × 16 points. At point (i, j) the pipeline hands the body three whole staging buffers: rows
  1024·i … 1024·i+1023 of the argument array (the LEFT rows), rows 1024·j … 1024·j+1023 of the same array (the RIGHT
  rows), and a buffer for the 1024 × 1024 tile (i, j) of the result. The body reads both row blocks, reads the tile
  buffer once without using the value, and overwrites the whole tile buffer with ONE pure function of the two row
  blocks (the generated payload `k0_pay1`). So what each buffer holds after the body is known at every point:
  the row blocks unchanged, the tile at that function of them. This file states that as the pipeline library's
  proof data and proves the body's obligation at a symbolic point; nothing here depends on what the payload computes.
-/
import proofs.«119567_j16011638079614_1_alg».proof.Proof.Gen.Kernel.Launch
import proofs.«119567_j16011638079614_1_alg».proof.Proof.Gen.Kernel.Skeleton
import proofs.«119567_j16011638079614_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Tiles

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the region is entered -/

/-- Core `c`'s buffers when the region is entered: the launch memory (the program is the region alone). -/
abbrev entry (c : Dev nD) (b : Ref sig .tc) : Buf (Elt F) ((c : Thread nD τ).loc b) := m ((c : Thread nD τ).loc b)

/-- The program up to its region is nothing: the region is its first and only operation. -/
theorem main_is_region (𝒱₀ : Variants) :
    Pipeline.HMain (Ix := Unit) (Name := ℕ) (U := UR sig nD τ) (Lvl := ℕ) cfgs 0 defs₀ 𝒱₀ m (main (F := F)) (entry m) :=
  Pipeline.hmain_region cfgs 0 defs₀ 𝒱₀ m main fun c => (main_chain c).trans rfl

/-- Window `w`'s block at grid point `t`, read off its array as the region finds it: for `w = 0` the left rows of the
    point, for `w = 1` its right rows (both blocks of the one argument array), for `w = 2` the result's tile. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-! ## What the body leaves in the tile's buffer -/

/-- The whole of a row block, and the whole of a tile, as rectangles: the body's four accesses. -/
abbrev rowsRect : Rect S1024x128 := Rect.unit (s := S1024x128) ![0, 0] S1024x128.size inb_S1024x128_S1024x128_0_0
abbrev tileRect : Rect S1024x1024 := Rect.unit (s := S1024x1024) ![0, 0] S1024x1024.size inb_S1024x1024_S1024x1024_0_0

/-- The tile's buffer after the body, from the two row blocks: its one store, of the payload of the two loads. -/
def tileOf (x0 : Vec F S1024x128 .f32) (x1 : Vec F S1024x128 .f32) : Vec F S1024x1024 .f32 :=
  View.canon [⟨tileRect, k0_pay1 (View.ld x0 rowsRect) (View.ld x1 rowsRect)⟩]

/-- The one store covers the tile's buffer. -/
theorem tile_covered (p0 : Vec F S1024x1024 .f32) (y : S1024x1024.Idx) :
    ∃ pc ∈ ([⟨tileRect, p0⟩] : List (View.Piece (Elt F) S1024x1024 .f32)), y ∈ pc.1.set :=
  View.cover_of_tiled [⟨tileRect, p0⟩] S1024x1024.size (by rfl) y

/-! ## The body's triple -/

set_option maxHeartbeats 1000000 in
/-- The body on whole staging memrefs — the row blocks' at contents `x0`, `x1`, the tile's at anything — runs to the
    continuation with the row blocks as they were and the tile's buffer at `tileOf x0 x1`. -/
theorem body_runs (c : Dev nD) (E : Set ℕ) (i : grid0.Coords)
    (arg2 : Memref sig .tc .vmem S1024x128 .f32) (harg2 : arg2.IsWhole) (arg3 : Memref sig .tc .vmem S1024x128 .f32) (harg3 : arg3.IsWhole)
    (arg4 : Memref sig .tc .vmem S1024x1024 .f32) (harg4 : arg4.IsWhole)
    (x0 : Vec F S1024x128 .f32) (x1 : Vec F S1024x128 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (tileOf x0 x1)) -∗ K ⟨⟩))
      ⊢ wp frame (wpE (defs₀ (F := F)) Variants.none c none) E (cc0__cosine_kernel i arg2 harg2 arg3 harg3 arg4 harg4) K := by
  simp only [cc0__cosine_kernel_eq_skeleton]; unfold cc0__cosine_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (tile_covered _)

/-! ## The proof data -/

/-- The pipeline's proof data on core `c`. The arrays are the launch contents. After the body at point `t` the two
    row buffers hold their blocks (the body only reads them) and the tile's buffer holds `tileOf` of the two blocks.
    The one argument array stands behind TWO input windows: the left rows hold it at the left half of the full share
    and the right rows at the right half, which is enough to read it; the result is held outright. Between points
    the body keeps nothing: the invariant is the core's scoped buffers that are no staging buffer (there are none). -/
def dats (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => tileOf (blockAt m c 0 t) (blockAt m c 1 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = entry m c (Pipeline.arrRef spec0 w) := by
  dsimp only [dats]

theorem after_left (c : Dev nD) (t : Fin cfg0.N) : (dats m 0 c).after 0 t = blockAt m c 0 t := by dsimp only [dats]
theorem after_right (c : Dev nD) (t : Fin cfg0.N) : (dats m 0 c).after 1 t = blockAt m c 1 t := by dsimp only [dats]
theorem after_tile (c : Dev nD) (t : Fin cfg0.N) :
    (dats m 0 c).after 2 t = tileOf (blockAt m c 0 t) (blockAt m c 1 t) := by dsimp only [dats]

/-- The left rows' buffer holds the point's left rows when the body runs, fetched at this point or not (at a point
    that does not fetch them the row index has not moved since the last fetch, and the body left the block alone). -/
theorem before_left (c : Dev nD) (t : Fin cfg0.N) (d) : (dats m 0 c).before 0 t d = blockAt m c 0 t :=
  ((dats m 0 c).before_in_eq_fetched 0 rfl (fun _ => rfl) (fun _ _ _ => rfl)
      (fun t => by rw [after_left]; unfold Dat.blockOf blockAt; rw [A_eq]; try rfl) t d).trans
    (by unfold Dat.fetched Dat.blockOf blockAt; rw [A_eq]; try rfl)

/-- The same for the right rows, which every point fetches. -/
theorem before_right (c : Dev nD) (t : Fin cfg0.N) (d) : (dats m 0 c).before 1 t d = blockAt m c 1 t :=
  ((dats m 0 c).before_in_eq_fetched 1 rfl (fun _ => rfl) (fun _ _ _ => rfl)
      (fun t => by rw [after_right]; unfold Dat.blockOf blockAt; rw [A_eq]; try rfl) t d).trans
    (by unfold Dat.fetched Dat.blockOf blockAt; rw [A_eq]; try rfl)

/-! ## The body obligation at a symbolic point -/

/-- What the body is called with at point `t`: the invariant, what the core owes (nothing), and the three current
    staging buffers at what the pipeline left in them. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- What it returns: the same, the buffers at the proof data's `after`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the row buffers hold the point's blocks, so `body_runs` applies; the invariant and what the
    core owes pass through untouched. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_left, before_right]
  rw [show (dats m 0 c).Φ t.succ = (dats m 0 c).Φ t.castSucc from rfl,
    show (dats m 0 c).owesAt () t.succ = (dats m 0 c).owesAt () t.castSucc from rfl,
    after_left, after_right, after_tile]
  iintro ⟨HΦ, Ho, ⟨%d0, H0⟩, ⟨%d1, H1⟩, ⟨%d2, H2⟩⟩
  iapply (body_runs c Set.univ (grid0.coords t) _ _ _ _ _ _ (blockAt m c 0 t) (blockAt m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation (c : Dev nD) : BodyObligation (dats (F := F) m 0 c) (defs₀ (F := F)) Variants.none () Set.univ := fun t => by
  rw [bigSep_W0, bigSep_W0]
  exact body_at m c t

end Cert.Kernel.Tiles

end
-- ==== Proof.BitsRun.lean ====
/-
  The run of program `Kernel`'s one region, at any float instance.

  The kernel is handed the ONE argument array through two input windows (left rows and right rows), so the pipeline's
  launch cannot give each window its array outright. The array, held whole when the region is entered, is dealt in
  two halves of the full share, one per window; each half is enough to read. The result's array is held outright by
  its one window. With the body obligation of every point, the region then runs: every weakly fair execution ends,
  nothing faults, and each window's array ends at what the write-backs made of it — the argument array never
  written, the result overwritten tile by tile with what the body left in the tile's buffer.
-/
import proofs.«119567_j16011638079614_1_alg».proof.Proof.BitsTiles

set_option maxRecDepth 16384

noncomputable section

namespace Cert.Kernel.Tiles

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The shares -/

theorem share_left (c : Dev nD) : (dats m 0 c).share 0 = fullShare.left := rfl
theorem share_right (c : Dev nD) : (dats m 0 c).share 1 = fullShare.right := rfl
theorem share_tile (c : Dev nD) : (dats m 0 c).share 2 = fullShare := rfl

/-- The distinct buffers behind the three windows' arrays are two: the argument array and the result. -/
theorem arrBufs_listed {M : Type} [URA M] (Φ : Ref sig .tc → sProp M) :
    bigSep (Finset.univ.image (Pipeline.arrRef spec0)) Φ = iprop(Φ main_arg0 ∗ Φ main_v0) :=
  bigSep_eq_bigSepL_of_eq [main_arg0, main_v0] (by decide) (by decide) Φ

/-- The two buffers behind the three windows' arrays, each whole at the full share at the launch contents, make the
    proof data's arrays at entry: the argument array's full share is the sum of its left and right halves. -/
theorem arrays_dealt (c : Dev nD) :
    (Pipeline.arrBufs (Ix := Unit) (Name := ℕ) (U := UR sig nD τ) (Lvl := ℕ) spec0 c (entry m c) : sProp 𝕄)
      ⊢ (dats m 0 c).arrays ((dats m 0 c).arrAt · 0) := by
  unfold Pipeline.arrBufs Dat.arrays
  rw [bigSep_W0, arrBufs_listed]
  rw [share_left, share_right, share_tile]
  have h0 : (cfg0.win 0).arr.IsWhole := arr_whole0 0
  have h2 : (cfg0.win 2).arr.IsWhole := arr_whole0 2
  rw [h0.set_eq_univ, h2.set_eq_univ]
  iintro ⟨Ha, Hv⟩
  ihave Ha' := (pointsTo_share (PosShare.mem_left_op_right fullShare)).1 $$ Ha
  icases Ha' with ⟨Hl, Hr⟩
  isplitl [Hl]; · iexact Hl
  isplitl [Hr]; · iexact Hr
  iexact Hv

/-! ## The run -/

-- the launch theorem's implicit arguments are found by unifying its conclusion with this one, which takes
-- unfolding plain definitions in a metavariable's type
set_option backward.isDefEq.respectTransparency.types false in
/-- Every weakly fair execution of the program ends, nothing faulting, with each window's array at what the
    write-backs of all 256 points made of it. Nothing but the three windows' arrays is unscoped on the core, and no
    scoped buffer but the staging buffers, so the launch has nothing else to route. -/
theorem region_runs : θ_run defs (onTc (τ := τ) (main (F := F))) ⟨m, fun _ => 0, ρ⟩
    (fun r => ∀ c : Dev nD, ∀ w : Fin cfg0.W,
      r.2.mem (((cfgs (0 : Fin 1)).spec w).arr.view.loc (c.tc : Thread nD τ)) = (dats m 0 c).arrAt w (cfgs (0 : Fin 1)).N) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj))
    (hu₀ := .rfl)
    (V := entry m) (hmain := main_is_region m Variants.none)
    (hsplit := arrays_dealt m)
    (X := fun _ => BI.emp) (Y := fun _ => BI.emp) (Z := fun _ => BI.emp)
    (hX := fun c => by
      rw [unscopedRest0_eq]
      iintro H
      isplitl [H]
      · iexact H
      iempintro)
    (hin := fun c => by
      dsimp only [dats]
      iintro ⟨-, H⟩
      iexact H)
    (hout := fun c => by
      dsimp only [dats]
      iintro H
      isplitr
      · iempintro
      iexact H)
    (QY := fun _ _ => True)
    (hY := fun c s' => by
      iintro ⟨-, -, HSI⟩
      imodintro
      isplitr
      · ipureintro; trivial
      iexact HSI)
    (hQ := fun s h c w => (h c).1 w)

/-- The frame: the program runs and its argument array ends as launched (an input window's array is never written). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun r h c => (h c 0).trans (((dats m 0 c).arrAt_in 0 rfl _).trans (A_eq m c 0))) (region_runs m ρ)

/-- The same run with the result's array named: what the 256 write-backs of tiles made of it. -/
theorem run_tiles : θ_run defs (onTc (τ := τ) (main (F := F))) ⟨m, fun _ => 0, ρ⟩ (fun r => ∀ c : Dev nD,
      r.2.mem ((c.tc : Thread nD τ).loc main_v0) = (dats m 0 c).arrAt 2 cfg0.N
      ∧ r.2.mem ((c.tc : Thread nD τ).loc main_arg0) = m ((c.tc : Thread nD τ).loc main_arg0)) :=
  (θ_run defs _ _).mono (fun r h c => ⟨h c 2, (h c 0).trans (((dats m 0 c).arrAt_in 0 rfl _).trans (A_eq m c 0))⟩) (region_runs m ρ)

end Cert.Kernel.Tiles

end
-- ==== Proof.IdealTiles.lean ====
/-
  The pipelined cosine kernel, point by point (program `KernelIdeal`, at any float instance `F`).

  The grid has 16 × 16 points. At point (i, j) the pipeline hands the body three whole staging buffers: rows
  1024·i … 1024·i+1023 of the argument array (the LEFT rows), rows 1024·j … 1024·j+1023 of the same array (the RIGHT
  rows), and a buffer for the 1024 × 1024 tile (i, j) of the result. The body reads both row blocks, reads the tile
  buffer once without using the value, and overwrites the whole tile buffer with ONE pure function of the two row
  blocks (the generated payload `k0_pay1`). So what each buffer holds after the body is known at every point:
  the row blocks unchanged, the tile at that function of them. This file states that as the pipeline library's
  proof data and proves the body's obligation at a symbolic point; nothing here depends on what the payload computes.
-/
import proofs.«119567_j16011638079614_1_alg».proof.Proof.Gen.KernelIdeal.Launch
import proofs.«119567_j16011638079614_1_alg».proof.Proof.Gen.KernelIdeal.Skeleton
import proofs.«119567_j16011638079614_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Tiles

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the region is entered -/

/-- Core `c`'s buffers when the region is entered: the launch memory (the program is the region alone). -/
abbrev entry (c : Dev nD) (b : Ref sig .tc) : Buf (Elt F) ((c : Thread nD τ).loc b) := m ((c : Thread nD τ).loc b)

/-- The program up to its region is nothing: the region is its first and only operation. -/
theorem main_is_region (𝒱₀ : Variants) :
    Pipeline.HMain (Ix := Unit) (Name := ℕ) (U := UR sig nD τ) (Lvl := ℕ) cfgs 0 defs₀ 𝒱₀ m (main (F := F)) (entry m) :=
  Pipeline.hmain_region cfgs 0 defs₀ 𝒱₀ m main fun c => (main_chain c).trans rfl

/-- Window `w`'s block at grid point `t`, read off its array as the region finds it: for `w = 0` the left rows of the
    point, for `w = 1` its right rows (both blocks of the one argument array), for `w = 2` the result's tile. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-! ## What the body leaves in the tile's buffer -/

/-- The whole of a row block, and the whole of a tile, as rectangles: the body's four accesses. -/
abbrev rowsRect : Rect S1024x128 := Rect.unit (s := S1024x128) ![0, 0] S1024x128.size inb_S1024x128_S1024x128_0_0
abbrev tileRect : Rect S1024x1024 := Rect.unit (s := S1024x1024) ![0, 0] S1024x1024.size inb_S1024x1024_S1024x1024_0_0

/-- The tile's buffer after the body, from the two row blocks: its one store, of the payload of the two loads. -/
def tileOf (x0 : Vec F S1024x128 .f32) (x1 : Vec F S1024x128 .f32) : Vec F S1024x1024 .f32 :=
  View.canon [⟨tileRect, k0_pay1 (View.ld x0 rowsRect) (View.ld x1 rowsRect)⟩]

/-- The one store covers the tile's buffer. -/
theorem tile_covered (p0 : Vec F S1024x1024 .f32) (y : S1024x1024.Idx) :
    ∃ pc ∈ ([⟨tileRect, p0⟩] : List (View.Piece (Elt F) S1024x1024 .f32)), y ∈ pc.1.set :=
  View.cover_of_tiled [⟨tileRect, p0⟩] S1024x1024.size (by rfl) y

/-! ## The body's triple -/

set_option maxHeartbeats 1000000 in
/-- The body on whole staging memrefs — the row blocks' at contents `x0`, `x1`, the tile's at anything — runs to the
    continuation with the row blocks as they were and the tile's buffer at `tileOf x0 x1`. -/
theorem body_runs (c : Dev nD) (E : Set ℕ) (i : grid0.Coords)
    (arg2 : Memref sig .tc .vmem S1024x128 .f32) (harg2 : arg2.IsWhole) (arg3 : Memref sig .tc .vmem S1024x128 .f32) (harg3 : arg3.IsWhole)
    (arg4 : Memref sig .tc .vmem S1024x1024 .f32) (harg4 : arg4.IsWhole)
    (x0 : Vec F S1024x128 .f32) (x1 : Vec F S1024x128 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (tileOf x0 x1)) -∗ K ⟨⟩))
      ⊢ wp frame (wpE (defs₀ (F := F)) Variants.none c none) E (cc0__cosine_kernel i arg2 harg2 arg3 harg3 arg4 harg4) K := by
  simp only [cc0__cosine_kernel_eq_skeleton]; unfold cc0__cosine_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (tile_covered _)

/-! ## The proof data -/

/-- The pipeline's proof data on core `c`. The arrays are the launch contents. After the body at point `t` the two
    row buffers hold their blocks (the body only reads them) and the tile's buffer holds `tileOf` of the two blocks.
    The one argument array stands behind TWO input windows: the left rows hold it at the left half of the full share
    and the right rows at the right half, which is enough to read it; the result is held outright. Between points
    the body keeps nothing: the invariant is the core's scoped buffers that are no staging buffer (there are none). -/
def dats (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => tileOf (blockAt m c 0 t) (blockAt m c 1 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = entry m c (Pipeline.arrRef spec0 w) := by
  dsimp only [dats]

theorem after_left (c : Dev nD) (t : Fin cfg0.N) : (dats m 0 c).after 0 t = blockAt m c 0 t := by dsimp only [dats]
theorem after_right (c : Dev nD) (t : Fin cfg0.N) : (dats m 0 c).after 1 t = blockAt m c 1 t := by dsimp only [dats]
theorem after_tile (c : Dev nD) (t : Fin cfg0.N) :
    (dats m 0 c).after 2 t = tileOf (blockAt m c 0 t) (blockAt m c 1 t) := by dsimp only [dats]

/-- The left rows' buffer holds the point's left rows when the body runs, fetched at this point or not (at a point
    that does not fetch them the row index has not moved since the last fetch, and the body left the block alone). -/
theorem before_left (c : Dev nD) (t : Fin cfg0.N) (d) : (dats m 0 c).before 0 t d = blockAt m c 0 t :=
  ((dats m 0 c).before_in_eq_fetched 0 rfl (fun _ => rfl) (fun _ _ _ => rfl)
      (fun t => by rw [after_left]; unfold Dat.blockOf blockAt; rw [A_eq]; try rfl) t d).trans
    (by unfold Dat.fetched Dat.blockOf blockAt; rw [A_eq]; try rfl)

/-- The same for the right rows, which every point fetches. -/
theorem before_right (c : Dev nD) (t : Fin cfg0.N) (d) : (dats m 0 c).before 1 t d = blockAt m c 1 t :=
  ((dats m 0 c).before_in_eq_fetched 1 rfl (fun _ => rfl) (fun _ _ _ => rfl)
      (fun t => by rw [after_right]; unfold Dat.blockOf blockAt; rw [A_eq]; try rfl) t d).trans
    (by unfold Dat.fetched Dat.blockOf blockAt; rw [A_eq]; try rfl)

/-! ## The body obligation at a symbolic point -/

/-- What the body is called with at point `t`: the invariant, what the core owes (nothing), and the three current
    staging buffers at what the pipeline left in them. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- What it returns: the same, the buffers at the proof data's `after`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the row buffers hold the point's blocks, so `body_runs` applies; the invariant and what the
    core owes pass through untouched. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_left, before_right]
  rw [show (dats m 0 c).Φ t.succ = (dats m 0 c).Φ t.castSucc from rfl,
    show (dats m 0 c).owesAt () t.succ = (dats m 0 c).owesAt () t.castSucc from rfl,
    after_left, after_right, after_tile]
  iintro ⟨HΦ, Ho, ⟨%d0, H0⟩, ⟨%d1, H1⟩, ⟨%d2, H2⟩⟩
  iapply (body_runs c Set.univ (grid0.coords t) _ _ _ _ _ _ (blockAt m c 0 t) (blockAt m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation (c : Dev nD) : BodyObligation (dats (F := F) m 0 c) (defs₀ (F := F)) Variants.none () Set.univ := fun t => by
  rw [bigSep_W0, bigSep_W0]
  exact body_at m c t

end Cert.KernelIdeal.Tiles

end
-- ==== Proof.IdealRun.lean ====
/-
  The run of program `KernelIdeal`'s one region, at any float instance.

  The kernel is handed the ONE argument array through two input windows (left rows and right rows), so the pipeline's
  launch cannot give each window its array outright. The array, held whole when the region is entered, is dealt in
  two halves of the full share, one per window; each half is enough to read. The result's array is held outright by
  its one window. With the body obligation of every point, the region then runs: every weakly fair execution ends,
  nothing faults, and each window's array ends at what the write-backs made of it — the argument array never
  written, the result overwritten tile by tile with what the body left in the tile's buffer.
-/
import proofs.«119567_j16011638079614_1_alg».proof.Proof.IdealTiles

set_option maxRecDepth 16384

noncomputable section

namespace Cert.KernelIdeal.Tiles

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The shares -/

theorem share_left (c : Dev nD) : (dats m 0 c).share 0 = fullShare.left := rfl
theorem share_right (c : Dev nD) : (dats m 0 c).share 1 = fullShare.right := rfl
theorem share_tile (c : Dev nD) : (dats m 0 c).share 2 = fullShare := rfl

/-- The distinct buffers behind the three windows' arrays are two: the argument array and the result. -/
theorem arrBufs_listed {M : Type} [URA M] (Φ : Ref sig .tc → sProp M) :
    bigSep (Finset.univ.image (Pipeline.arrRef spec0)) Φ = iprop(Φ main_arg0 ∗ Φ main_v0) :=
  bigSep_eq_bigSepL_of_eq [main_arg0, main_v0] (by decide) (by decide) Φ

/-- The two buffers behind the three windows' arrays, each whole at the full share at the launch contents, make the
    proof data's arrays at entry: the argument array's full share is the sum of its left and right halves. -/
theorem arrays_dealt (c : Dev nD) :
    (Pipeline.arrBufs (Ix := Unit) (Name := ℕ) (U := UR sig nD τ) (Lvl := ℕ) spec0 c (entry m c) : sProp 𝕄)
      ⊢ (dats m 0 c).arrays ((dats m 0 c).arrAt · 0) := by
  unfold Pipeline.arrBufs Dat.arrays
  rw [bigSep_W0, arrBufs_listed]
  rw [share_left, share_right, share_tile]
  have h0 : (cfg0.win 0).arr.IsWhole := arr_whole0 0
  have h2 : (cfg0.win 2).arr.IsWhole := arr_whole0 2
  rw [h0.set_eq_univ, h2.set_eq_univ]
  iintro ⟨Ha, Hv⟩
  ihave Ha' := (pointsTo_share (PosShare.mem_left_op_right fullShare)).1 $$ Ha
  icases Ha' with ⟨Hl, Hr⟩
  isplitl [Hl]; · iexact Hl
  isplitl [Hr]; · iexact Hr
  iexact Hv

/-! ## The run -/

-- the launch theorem's implicit arguments are found by unifying its conclusion with this one, which takes
-- unfolding plain definitions in a metavariable's type
set_option backward.isDefEq.respectTransparency.types false in
/-- Every weakly fair execution of the program ends, nothing faulting, with each window's array at what the
    write-backs of all 256 points made of it. Nothing but the three windows' arrays is unscoped on the core, and no
    scoped buffer but the staging buffers, so the launch has nothing else to route. -/
theorem region_runs : θ_run defs (onTc (τ := τ) (main (F := F))) ⟨m, fun _ => 0, ρ⟩
    (fun r => ∀ c : Dev nD, ∀ w : Fin cfg0.W,
      r.2.mem (((cfgs (0 : Fin 1)).spec w).arr.view.loc (c.tc : Thread nD τ)) = (dats m 0 c).arrAt w (cfgs (0 : Fin 1)).N) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj))
    (hu₀ := .rfl)
    (V := entry m) (hmain := main_is_region m Variants.none)
    (hsplit := arrays_dealt m)
    (X := fun _ => BI.emp) (Y := fun _ => BI.emp) (Z := fun _ => BI.emp)
    (hX := fun c => by
      rw [unscopedRest0_eq]
      iintro H
      isplitl [H]
      · iexact H
      iempintro)
    (hin := fun c => by
      dsimp only [dats]
      iintro ⟨-, H⟩
      iexact H)
    (hout := fun c => by
      dsimp only [dats]
      iintro H
      isplitr
      · iempintro
      iexact H)
    (QY := fun _ _ => True)
    (hY := fun c s' => by
      iintro ⟨-, -, HSI⟩
      imodintro
      isplitr
      · ipureintro; trivial
      iexact HSI)
    (hQ := fun s h c w => (h c).1 w)

/-- The frame: the program runs and its argument array ends as launched (an input window's array is never written). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun r h c => (h c 0).trans (((dats m 0 c).arrAt_in 0 rfl _).trans (A_eq m c 0))) (region_runs m ρ)

/-- The same run with the result's array named: what the 256 write-backs of tiles made of it. -/
theorem run_tiles : θ_run defs (onTc (τ := τ) (main (F := F))) ⟨m, fun _ => 0, ρ⟩ (fun r => ∀ c : Dev nD,
      r.2.mem ((c.tc : Thread nD τ).loc main_v0) = (dats m 0 c).arrAt 2 cfg0.N
      ∧ r.2.mem ((c.tc : Thread nD τ).loc main_arg0) = m ((c.tc : Thread nD τ).loc main_arg0)) :=
  (θ_run defs _ _).mono (fun r h c => ⟨h c 2, (h c 0).trans (((dats m 0 c).arrAt_in 0 rfl _).trans (A_eq m c 0))⟩) (region_runs m ρ)

end Cert.KernelIdeal.Tiles

end
-- ==== Proof.Cosine.lean ====
/-
  The specification: pairwise cosine similarity with a floor on the denominator, over the extended reals.

  For two rows `u`, `v` of 128 extended reals,
      cosEntry u v = (Σₖ uₖ·vₖ) / max (√(Σₖ uₖ²) · √(Σₖ vₖ²)) ε,
  the quotient, the square root and the maximum being the exact ones on the extended reals and `ε` the binary value of
  the single-precision word 0x358637BD (about 10⁻⁶; the SAME word in both programs, so its value is never needed).
  The result array of the whole computation on `h : [16384, 128]` is `sims h`, whose entry `(i, j)` is `cosEntry` of rows
  `i` and `j` of `h`. No program is imported here.
-/
import Idealize.ShloMosaic.PureOps.Ideal
import Idealize.ShloMosaic.Lib.ValueIdx

noncomputable section

namespace Cert.Cosine

open Idealize.ShloMosaic Idealize.ShloMosaic.ValueIdx

/-- The floor of the denominator. -/
def floorWord : EReal := Ideal.ofBits .f32 0x358637BD#32

/-- The similarity of two rows. -/
def cosEntry (u v : Fin 128 → EReal) : EReal :=
  Ideal.div (∑ k : Fin 128, u k * v k)
    (max (Ideal.sqrt (∑ k : Fin 128, u k * u k) * Ideal.sqrt (∑ k : Fin 128, v k * v k)) floorWord)

/-- Row `i` of an array of `n` rows of 128. -/
def row {n : Nat} (h : (⟨2, ![n, 128]⟩ : Shape).Idx → EReal) (i : Fin n) : Fin 128 → EReal := fun k => h (ix2 i k)

/-- All pairwise similarities of the 16384 rows of `h`. -/
def sims (h : (⟨2, ![16384, 128]⟩ : Shape).Idx → EReal) : (⟨2, ![16384, 16384]⟩ : Shape).Idx → EReal :=
  fun p => cosEntry (row h (p 0)) (row h (p 1))

end Cert.Cosine

end
-- ==== Proof.LibColumns.lean ====
/-
  Column vectors read at coordinates: the three layout steps of a "keepdims" row reduction.

  A reduction over the last axis of an `[a, n]` array gives a vector `[a]`; kept as a COLUMN it is cast to `[a, 1]`,
  and a column is then either broadcast along a new second axis to `[a, b]` (every entry of row `p` is the column's
  entry `p`) or transposed to the row `[1, a]`. Each lemma reads one of these at an index written with coordinates.
-/
import Idealize.ShloMosaic.Lib.Pipeline.Value
import Idealize.ShloMosaic.Lib.ValueIdx
import Idealize.ShloMosaic.Lib.ValueLayout

namespace Cert.Lib.Columns

open Idealize.ShloMosaic Idealize.ShloMosaic.ValueIdx

variable {α : Type}

/-- A vector `[a]` cast to the column `[a, 1]` reads, at `(p, z)`, the vector at `p`, whatever the unit coordinate `z`:
    both indices have row-major position `p`. -/
theorem shapeCast_a_a1_apply {a : ℕ} (x : (⟨1, ![a]⟩ : Shape).Idx → α) (h : (⟨1, ![a]⟩ : Shape).ShapeCasts ⟨2, ![a, 1]⟩)
    (p : Fin a) (z : Fin 1) : shapeCast ⟨2, ![a, 1]⟩ x h (ix2 p z) = x (ix1 p) :=
  shapeCast_apply x h _ _ (by
    have hz : z.val = 0 := by omega
    rw [Shape.rowMajor_val_two, Shape.rowMajor_val_one]
    show p.val = p.val * 1 + z.val
    rw [hz, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` transposed to the row `[1, a]` reads, at `(z, p)`, the column's entry `p`. -/
theorem transpose_a1_1a_apply {a : ℕ} (x : (⟨2, ![a, 1]⟩ : Shape).Idx → α)
    (h : (⟨2, ![a, 1]⟩ : Shape).Transposes [1, 0] ⟨2, ![1, a]⟩) (z : Fin 1) (p : Fin a) :
    transpose ⟨2, ![1, a]⟩ [1, 0] x h (ix2 z p) = x (ix2 p z) :=
  transpose_ix2_apply x h z p

end Cert.Lib.Columns
-- ==== Proof.TileEntry.lean ====
/-
  One entry of a tile, from the two row blocks the body loaded (program `KernelIdeal`, at the extended reals).

  The body's one stored value is `divf (matmul …) (maximumf (mulf (norms of left rows, as a column broadcast along the
  row) (norms of right rows, as a row broadcast down the columns)) ε)`. At entry `(a, b)` of the tile:
  the matrix product of the left block with the TRANSPOSED right block, into a zero accumulator, is Σₖ x0[a,k]·x1[b,k]
  (the change of float format before it is the identity on extended reals); the sum of squares of row `a`, kept as a
  column, square-rooted and broadcast, is √Σₖ x0[a,k]²; the same for row `b` of the right block, transposed to a row first.
  So the entry is the specification's `cosEntry` of row `a` of the left block and row `b` of the right block.
-/
import proofs.«119567_j16011638079614_1_alg».proof.Proof.Gen.KernelIdeal.Skeleton
import proofs.«119567_j16011638079614_1_alg».proof.Proof.Cosine
import proofs.«119567_j16011638079614_1_alg».proof.Proof.LibColumns
import Idealize.ShloMosaic.PureOps.Ideal.Laws
import Idealize.ShloMosaic.Lib.ValueIdx
import Idealize.ShloMosaic.Lib.ValueLayout

noncomputable section

namespace Cert.KernelIdeal.TileEntry

open Cert.KernelIdeal Cert.KernelIdeal.Gen
open Idealize.ShloMosaic Idealize.ShloMosaic.ValueIdx Cert.Lib.Columns Cert.Cosine

/-- The matrix product's dimension record: left `[1024, 128]` contracted on axis 1 with right `[128, 1024]` on axis 0. -/
abbrev DD : DotDims S1024x128 S128x1024 S1024x1024 := dot_S1024x128_S128x1024_S1024x1024_1_0_0_1_n_n

/-! ## The operand indices of the matrix product -/

theorem lhs_row (i : S1024x1024.Idx) (q : DD.contr.Idx) : (DD.lhsIdx i q 0).val = (i 0).val := by
  unfold DotDims.lhsIdx
  rw [dif_neg (show ¬(0 : Fin S1024x128.rank) ∈ DD.lhsBatch by decide), dif_pos (show (0 : Fin S1024x128.rank) ∈ DD.lhsNonContracting by decide)]
  rfl
theorem lhs_k (i : S1024x1024.Idx) (q : DD.contr.Idx) : (DD.lhsIdx i q 1).val = (q ⟨0, by decide⟩).val :=
  DD.lhsIdx_val_of_single rfl i q
theorem rhs_k (i : S1024x1024.Idx) (q : DD.contr.Idx) : (DD.rhsIdx i q 0).val = (q ⟨0, by decide⟩).val :=
  DD.rhsIdx_val_of_single rfl i q
theorem rhs_col (i : S1024x1024.Idx) (q : DD.contr.Idx) : (DD.rhsIdx i q 1).val = (i 1).val := by
  unfold DotDims.rhsIdx
  rw [dif_neg (show ¬(1 : Fin S128x1024.rank) ∈ DD.rhsBatch by decide), dif_pos (show (1 : Fin S128x1024.rank) ∈ DD.rhsNonContracting by decide)]
  rfl

/-! ## The three ingredients -/

/-- The products of row `a` of the left block with row `b` of the right block, summed: the matrix product of the left
    block with the transposed right block into a zero accumulator, at `(a, b)`. -/
theorem dots_entry (x0 x1 : FVec Ideal S1024x128 .f32) (hb : FTy.bf16.bits < FTy.f32.bits)
    (ht : S1024x128.Transposes [1, 0] S128x1024) (a b : Fin 1024) :
    matmul DD none (truncf .bf16 x0 hb) (transpose S128x1024 [1, 0] (truncf .bf16 x1 hb) ht) (constant S1024x1024 .f32 0x00000000#32) (ix2 a b)
      = ∑ k : Fin 128, x0 (ix2 a k) * x1 (ix2 b k) := by
  simp only [matmul]
  rw [Ideal.matmul_constant_zero_apply, ← Equiv.sum_comp (contrEquiv1 DD 128 rfl rfl).symm]
  refine Finset.sum_congr rfl fun k _ => ?_
  have hk := contrEquiv1_symm_val DD 128 rfl rfl k
  have el : DD.lhsIdx (ix2 a b) ((contrEquiv1 DD 128 rfl rfl).symm k) = ix2 a k := funext fun d => Fin.ext (by
    match d with
    | ⟨0, _⟩ => exact lhs_row _ _
    | ⟨1, _⟩ => exact (lhs_k _ _).trans hk)
  have er : DD.rhsIdx (ix2 a b) ((contrEquiv1 DD 128 rfl rfl).symm k) = ix2 k b := funext fun d => Fin.ext (by
    match d with
    | ⟨0, _⟩ => exact (rhs_k _ _).trans hk
    | ⟨1, _⟩ => exact rhs_col _ _)
  rw [el, er]
  exact congrArg (x0 (ix2 a k) * ·) (transpose_ix2_apply (truncf .bf16 x1 hb) ht k b)

/-- The sum along a row of a `[1024, 128]` block, from a zero start. -/
theorem row_sum (y : FVec Ideal S1024x128 .f32) (hφ : FKind.Formats FTy.f32)
    (hacc : (0x00000000#32 : BitVec FTy.f32.bits) = FKind.add.neutral FTy.f32 hφ) (a : Fin 1024) :
    multiReduction .add [1] S1024 y 0x00000000#32 reduces_S1024x128_S1024 hφ hacc (ix1 a) = ∑ k : Fin 128, y (ix2 a k) := by
  refine (Ideal.multiReduction_add_single y 0x00000000#32 reduces_S1024x128_S1024 hφ hacc (ix1 a)).trans ?_
  refine Finset.sum_congr rfl fun k _ => congrArg y (funext fun d => Fin.ext ?_)
  match d with
  | ⟨0, _⟩ => rfl
  | ⟨1, _⟩ => rfl

/-- The norm of row `a`, as the body computes it: the row's sum of squares, kept as a column, square-rooted. -/
theorem norm_col (x : FVec Ideal S1024x128 .f32) (hφ : FKind.Formats FTy.f32)
    (hacc : (0x00000000#32 : BitVec FTy.f32.bits) = FKind.add.neutral FTy.f32 hφ) (hc : S1024.ShapeCasts S1024x1) (a : Fin 1024) (z : Fin 1) :
    sqrt (shapeCast S1024x1 (multiReduction .add [1] S1024 (mulf x x) 0x00000000#32 reduces_S1024x128_S1024 hφ hacc) hc) (ix2 a z)
      = Ideal.sqrt (∑ k : Fin 128, x (ix2 a k) * x (ix2 a k)) :=
  congrArg Ideal.sqrt ((shapeCast_a_a1_apply _ hc a z).trans (row_sum (mulf x x) hφ hacc a))

/-! ## The entry -/

/-- Entry `(a, b)` of what the body stores is the similarity of row `a` of the left block and row `b` of the right block. -/
theorem payload_entry (x0 x1 : FVec Ideal S1024x128 .f32) (a b : Fin 1024) :
    k0_pay1 (F := Ideal) x0 x1 (ix2 a b) = cosEntry (row x0 a) (row x1 b) := by
  unfold k0_pay1
  refine congrArg₂ Ideal.div (dots_entry x0 x1 _ _ a b) (congrArg₂ max (congrArg₂ (· * ·) ?_ ?_) rfl)
  · exact (broadcastTo_a1_ab_apply _ _ a b).trans (norm_col x0 _ _ _ a 0)
  · exact (broadcastTo_1b_ab_apply _ _ a b).trans ((transpose_a1_1a_apply _ _ 0 b).trans (norm_col x1 _ _ _ b 0))

/-- The same at any index of the tile. -/
theorem payload_at (x0 x1 : FVec Ideal S1024x128 .f32) (j : S1024x1024.Idx) :
    k0_pay1 (F := Ideal) x0 x1 j = cosEntry (row x0 (j 0)) (row x1 (j 1)) :=
  (congrArg (k0_pay1 (F := Ideal) x0 x1) (eq_ix2 j)).trans (payload_entry x0 x1 (j 0) (j 1))

end Cert.KernelIdeal.TileEntry

end
-- ==== Proof.TilesCover.lean ====
/-
  From tiles to the whole result (program `KernelIdeal`, at the extended reals).

  Grid point `t = (I, J)` reads rows 1024·I… of the argument as its left block and rows 1024·J… as its right block
  (the printed index maps, decided once over the 256 points), and writes back tile `(I, J)` of the result. Entry `(a, b)`
  of what it writes is the similarity of left row `a` and right row `b`, that is of rows 1024·I + a and 1024·J + b of the
  argument: exactly entry `(1024·I + a, 1024·J + b)` of `sims` of the argument. Every index `(r, s)` of the result lies in
  the tile of the point with `I = r / 1024`, `J = s / 1024`, and every point writes its tile back. So after the run the
  result array is `sims` of the argument array, whole.
-/
import proofs.«119567_j16011638079614_1_alg».proof.Proof.IdealRun
import proofs.«119567_j16011638079614_1_alg».proof.Proof.TileEntry
import Idealize.ShloMosaic.Lib.Pipeline.Value

set_option maxRecDepth 16384

noncomputable section

namespace Cert.KernelIdeal.Tiles

open Cert.KernelIdeal Cert.KernelIdeal.Gen Cert.KernelIdeal.TileEntry Cert.Cosine
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The printed index maps over the grid: the left rows' block row is the tile's block row, the right rows' block row
    is the tile's block column, both row windows sit at block column 0, and the tile's block indices are below 16. -/
theorem block_indices : ∀ t : Fin cfg0.N,
    win0_0.index t (0 : Fin 2) = win0_2.index t (0 : Fin 2) ∧ win0_0.index t (1 : Fin 2) = 0
    ∧ win0_1.index t (0 : Fin 2) = win0_2.index t (1 : Fin 2) ∧ win0_1.index t (1 : Fin 2) = 0
    ∧ win0_2.index t (0 : Fin 2) ≤ 15 ∧ win0_2.index t (1 : Fin 2) ≤ 15 :=
  (by decide +kernel : ∀ t : Fin grid0.N, _)

/-- Every tile is some point's. -/
theorem tile_of_some_point : ∀ (q0 : Fin 16) (q1 : Fin 16), ∃ t : Fin cfg0.N, win0_2.index t = ![q0.val, q1.val] :=
  (by decide +kernel : ∀ (q0 : Fin 16) (q1 : Fin 16), ∃ t : Fin grid0.N, win0_2.index t = ![q0.val, q1.val])

/-- What point `t` writes back is its tile of `sims` of the argument array. -/
theorem tile_written (c : Dev nD) (t : Fin cfg0.N) :
    (dats m 0 c).flushed 2 t = ((cfg0.win 2).blk t).view.read (Elt Ideal) (sims (entry m c main_arg0)) := by
  show (cfg0.win 2).cut (grid0.coords t) ((dats m 0 c).after 2 t) = _
  rw [after_tile]
  unfold tileOf
  rw [View.canon_unit_zero zero_offsets]
  simp only [View.ld_unit_zero (S := S1024x128) zero_offsets]
  obtain ⟨e0, e1, e2, e3, e4, e5⟩ := block_indices t
  funext j
  show k0_pay1 (F := Ideal) (blockAt m c 0 t) (blockAt m c 1 t) j
    = sims (entry m c main_arg0) (((cfg0.win 2).blk t).view.emb j)
  refine (payload_at _ _ j).trans ?_
  unfold sims
  refine congrArg₂ cosEntry (funext fun k => ?_) (funext fun k => ?_)
  · show entry m c main_arg0 (((cfg0.win 0).blk t).view.emb (ix2 (j 0) k))
      = entry m c main_arg0 (ix2 ((((cfg0.win 2).blk t).view.emb j) 0) k)
    refine congrArg (entry m c main_arg0) (funext fun d => Fin.ext ?_)
    match d with
    | ⟨0, _⟩ =>
      show win0_0.index t (0 : Fin 2) * 1024 + 1 * (j 0).val = win0_2.index t (0 : Fin 2) * 1024 + 1 * (j 0).val
      omega
    | ⟨1, _⟩ =>
      show win0_0.index t (1 : Fin 2) * 128 + 1 * k.val = k.val
      omega
  · show entry m c main_arg0 (((cfg0.win 1).blk t).view.emb (ix2 (j 1) k))
      = entry m c main_arg0 (ix2 ((((cfg0.win 2).blk t).view.emb j) 1) k)
    refine congrArg (entry m c main_arg0) (funext fun d => Fin.ext ?_)
    match d with
    | ⟨0, _⟩ =>
      show win0_1.index t (0 : Fin 2) * 1024 + 1 * (j 1).val = win0_2.index t (1 : Fin 2) * 1024 + 1 * (j 1).val
      omega
    | ⟨1, _⟩ =>
      show win0_1.index t (1 : Fin 2) * 128 + 1 * k.val = k.val
      omega

/-- An index of the result is in point `t`'s tile iff each coordinate is in the tile's range on its axis. -/
theorem mem_tile (t : Fin cfg0.N) (i : S16384x16384.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v0).slice (win0_2.rect t)).set ↔ _
  rw [View.set_slice_whole, Rect.mem_set_unit]
  exact Iff.rfl

/-- The tiles cover the result: index `(r, s)` is in the tile of the point with block row `r / 1024` and block column
    `s / 1024`, and that point writes its tile back. -/
theorem tiles_cover (i : S16384x16384.Idx) :
    ∃ t : Fin cfg0.N, (cfg0.win 2).flush t = true ∧ i ∈ ((cfg0.win 2).blk t).view.set := by
  have hi0 : (i 0).val < 16384 := (i 0).isLt
  have hi1 : (i 1).val < 16384 := (i 1).isLt
  obtain ⟨t, ht⟩ := tile_of_some_point ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, flush0_2 t, ?_⟩
  rw [mem_tile]
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 1024 ≤ (i 1).val ∧ (i 1).val < win0_2.index t (1 : Fin 2) * 1024 + 1024
    omega

/-- After the run the result array is `sims` of the argument array as launched. -/
theorem result_is_sims (c : Dev nD) :
    (dats m 0 c).arrAt 2 cfg0.N = sims (m ((c : Thread nD τ).loc main_arg0)) :=
  (dats m 0 c).arrAt_eq_of_cover 2 _ (fun t _ => tile_written m c t) tiles_cover

/-- The program's run, read: the result is `sims` of the argument, the argument unchanged. -/
theorem run : θ_run defs (onTc (τ := τ) (main (F := Ideal))) ⟨m, fun _ => 0, ρ⟩ (fun r => ∀ c : Dev nD,
      r.2.mem ((c.tc : Thread nD τ).loc main_v0) = sims (m ((c : Thread nD τ).loc main_arg0))
      ∧ r.2.mem ((c.tc : Thread nD τ).loc main_arg0) = m ((c.tc : Thread nD τ).loc main_arg0)) :=
  (θ_run defs _ _).mono (fun r h c => ⟨(h c).1.trans (result_is_sims m c), (h c).2⟩) (run_tiles m ρ)

end Cert.KernelIdeal.Tiles

end
-- ==== Proof.RefSims.lean ====
/-
  The reference computes the specification (program `ReferenceIdeal`, at the extended reals).

  Its result is `dot_general(h, h) / max(norm ⊗ norm, ε)` with `norm = √(0 + Σₖ h[·,k]²)`, the norms laid out once as a
  column and once as a row and broadcast to the square. Read at `(i, j)` through the generated one-operation lemmas:
  the dot product is Σₖ h[i,k]·h[j,k]; the column's entry is row `i`'s norm and the row's entry is row `j`'s; the zero the
  host sum starts from adds nothing; `ε` is the same word as the kernel's. That is `sims h` at `(i, j)`.
-/
import proofs.«119567_j16011638079614_1_alg».proof.Proof.Gen.ReferenceIdeal.Read
import proofs.«119567_j16011638079614_1_alg».proof.Proof.Cosine

noncomputable section

namespace Cert.ReferenceIdeal.Sims

open Cert.ReferenceIdeal Cert.ReferenceIdeal.Gen Cert.ReferenceIdeal.Read
open Idealize.ShloMosaic Idealize.ShloMosaic.ValueIdx Cert.Cosine

/-! ## The generated index functions, in coordinates -/

theorem left_idx (i : S16384x16384.Idx) (k : Fin 128) : lidx_main_v0 i k = ix2 (i 0) k :=
  funext fun a => Fin.ext (by match a with | ⟨0, _⟩ => rfl | ⟨1, _⟩ => rfl)
theorem right_idx (i : S16384x16384.Idx) (k : Fin 128) : ridx_main_v0 i k = ix2 (i 1) k :=
  funext fun a => Fin.ext (by match a with | ⟨0, _⟩ => rfl | ⟨1, _⟩ => rfl)
theorem col_idx (i : S16384x16384.Idx) (k : Fin 128) : idx_main_call0_v1 (idx_main_v2 (idx_main_v4 i)) k = ix2 (i 0) k :=
  funext fun a => Fin.ext (by match a with | ⟨0, _⟩ => rfl | ⟨1, _⟩ => rfl)
theorem row_idx (i : S16384x16384.Idx) (k : Fin 128) : idx_main_call0_v1 (idx_main_v3 (idx_main_v5 i)) k = ix2 (i 1) k :=
  funext fun a => Fin.ext (by match a with | ⟨0, _⟩ => rfl | ⟨1, _⟩ => rfl)

/-- The reference's result is the specification's array of pairwise similarities. -/
theorem reference_is_sims (x0 : (⟨S16384x128, .f32⟩ : BufTy).Contents (Elt Ideal)) :
    val_main_v9 (F := Ideal) x0 = sims x0 := by
  funext i
  rw [val_main_v9_apply, val_main_v0_apply, val_main_v8_apply, val_main_v6_apply,
    val_main_v4_apply, val_main_v2_apply, val_main_v1_apply, val_main_call0_v1_apply,
    val_main_v5_apply, val_main_v3_apply, val_main_v1_apply, val_main_call0_v1_apply,
    val_main_v7_apply, val_main_cst_apply, val_main_call0_cst_apply]
  simp only [val_main_call0_v0_apply, left_idx, right_idx, col_idx, row_idx,
    Ideal.hostDivf_def, Ideal.maximumf_def, Ideal.mulf_def, Ideal.hostUnary_sqrt_def, Ideal.ofBits_def,
    Ideal.ofBits_zero_f32, zero_add]
  rfl

end Cert.ReferenceIdeal.Sims

end
-- ==== Proof.lean ====
/-
  Pairwise cosine similarity of the 16384 rows of `h : [16384, 128]`, tiled 16 × 16, against its plain definition.

  THE KERNEL. One pipelined region over a 16 × 16 grid. At point (I, J) the body is handed rows 1024·I … of `h` (left
  block), rows 1024·J … of the same array (right block) and the 1024 × 1024 tile (I, J) of the result; it stores
      tile[a, b] = (Σₖ L[a,k]·R[b,k]) / max (√(Σₖ L[a,k]²) · √(Σₖ R[b,k]²)) ε
  (the product taken by the matrix unit after a change of float format, which on extended reals is the identity).

  THE REFERENCE. `dot_general(h, h) / max(norm ⊗ norm, ε)`, `norm[i] = √(0 + Σₖ h[i,k]²)`, with the same word `ε`.

  Both are, entry by entry, `cosEntry (row i) (row j)` (Proof/Cosine.lean): no algebraic law is needed beyond reading
  the two programs at an index, so the inputs' finiteness is never used.

  THE FRAMES. The argument array stands behind two input windows at once, so the region is launched with the array's
  full share dealt in two halves, one per window (Proof/IdealRun.lean, Proof/BitsRun.lean: the same text at the two
  float instances); the body's obligation is proved at a symbolic grid point (Proof/IdealTiles.lean,
  Proof/BitsTiles.lean). The reference is a straight line of host operations; its frame is its run with the result
  forgotten.

  THE VALUE. Point (I, J) writes back tile (I, J) of `sims h` (Proof/TileEntry.lean for one entry, Proof/TilesCover.lean
  for the block arithmetic), the 256 tiles cover the result, so the kernel's result array is `sims h`; the reference's
  is too (Proof/RefSims.lean). The idealization rewrote nothing, so `preserves` is `True`.
-/
import proofs.«119567_j16011638079614_1_alg».proof.Defs
import proofs.«119567_j16011638079614_1_alg».proof.Proof.Gen.Kernel
import proofs.«119567_j16011638079614_1_alg».proof.Proof.Gen.KernelIdeal
import proofs.«119567_j16011638079614_1_alg».proof.Proof.Gen.ReferenceIdeal
import proofs.«119567_j16011638079614_1_alg».proof.Proof.Gen.Pre_finite_inputs
import proofs.«119567_j16011638079614_1_alg».proof.Proof.Gen.ReferenceIdeal.Read
import proofs.«119567_j16011638079614_1_alg».proof.Proof.BitsRun
import proofs.«119567_j16011638079614_1_alg».proof.Proof.TilesCover
import proofs.«119567_j16011638079614_1_alg».proof.Proof.RefSims
import Idealize.ShloMosaic.Adequacy
import Idealize.ShloMosaic.Init

noncomputable section

namespace Cert.Proof

open Idealize.ShloMosaic Idealize.ShloMosaic.TcCoe Idealize.SL.Sem

/-- The word-level kernel runs and leaves its argument as launched. -/
theorem frame_kernel [Cert.Kernel.Facts] [Cert.Pre_finite_inputs.Facts] : Cert.frame_Kernel :=
  fun m ρ _ => Cert.Kernel.Tiles.frame m ρ

/-- The idealized kernel runs and leaves its argument as launched. -/
theorem frame_ideal [Cert.KernelIdeal.Facts] [Cert.Pre_finite_inputs.Facts] : Cert.frame_KernelIdeal :=
  fun m ρ _ => Cert.KernelIdeal.Tiles.frame m ρ

/-- The reference runs and leaves its argument as launched: its run with the result forgotten. -/
theorem frame_reference [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- From memories that agree on the argument, both programs end with the array of pairwise similarities of its rows. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.Cosine.sims (m ((c.tc : Thread Cert.KernelIdeal.nD Cert.KernelIdeal.τ).loc Cert.KernelIdeal.main_arg0)),
    Cert.KernelIdeal.Tiles.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.Sims.reference_is_sims, hagree c]

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
